-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256000x300 : Shape := ⟨2, ![256000, 300]⟩
abbrev S256 : Shape := ⟨1, ![256]⟩
abbrev S_ : Shape := ⟨0, ![]⟩

class Facts : Prop where
  bcast_S_S256000x300 : S_.BroadcastsInDim S256000x300 (![] : Fin 0 → Fin S256000x300.rank)
  reducesTo_S256000x300_S_d0_1 : S256000x300.ReducesTo [0, 1] S_
  h_S_ : 0 < S_.numel

variable [Facts]

def fn {F : FTy → Type} [FloatOps F] (main_arg0 : FVec F S256000x300 .f32) (main_arg1 : FVec F S256000x300 .f32) (main_arg2 : IVec S256 32) : IVec S_ 1 :=
  let main_v0 : FVec F S256000x300 .f32 := Host.absf main_arg0
  let main_cst : FVec F S_ .f32 := constant S_ .f32 0x7F800000#32
  let main_v1 : FVec F S256000x300 .f32 := broadcastInDim S256000x300 ![] bcast_S_S256000x300 main_cst
  let main_v2 : IVec S256000x300 1 := cmpf .olt main_v0 main_v1
  let main_c : IVec S_ 1 := constantI S_ 1 1#1
  let main_v3 : IVec S_ 1 := (fun x v => Host.reduce IntOp.andi x v reducesTo_S256000x300_S_d0_1 h_S_) main_v2 main_c
  let main_v4 : FVec F S256000x300 .f32 := Host.absf main_arg1
  let main_cst_0 : FVec F S_ .f32 := constant S_ .f32 0x7F800000#32
  let main_v5 : FVec F S256000x300 .f32 := broadcastInDim S256000x300 ![] bcast_S_S256000x300 main_cst_0
  let main_v6 : IVec S256000x300 1 := cmpf .olt main_v4 main_v5
  let main_c_1 : IVec S_ 1 := constantI S_ 1 1#1
  let main_v7 : IVec S_ 1 := (fun x v => Host.reduce IntOp.andi x v reducesTo_S256000x300_S_d0_1 h_S_) main_v6 main_c_1
  let main_v8 : IVec S_ 1 := andi main_v3 main_v7
  main_v8
-- ==== Kernel.lean ====
abbrev S256000x300 : Shape := ⟨2, ![256000, 300]⟩
abbrev S256 : Shape := ⟨1, ![256]⟩
abbrev S256x1000x300 : Shape := ⟨3, ![256, 1000, 300]⟩
abbrev S256x1000x1 : Shape := ⟨3, ![256, 1000, 1]⟩
abbrev S4x1000x300 : Shape := ⟨3, ![4, 1000, 300]⟩
abbrev S4x1000x1 : Shape := ⟨3, ![4, 1000, 1]⟩
abbrev S4x1000 : Shape := ⟨2, ![4, 1000]⟩
abbrev S256x1000 : Shape := ⟨2, ![256, 1000]⟩
abbrev S256x1 : Shape := ⟨2, ![256, 1]⟩
abbrev S1 : Shape := ⟨1, ![1]⟩
abbrev S1000 : Shape := ⟨1, ![1000]⟩
abbrev S1x1000 : Shape := ⟨2, ![1, 1000]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S256000x300, .f32⟩
  | .hbm, ⟨1, _⟩ => ⟨S256000x300, .f32⟩
  | .hbm, ⟨2, _⟩ => ⟨S256, .i32⟩
  | .hbm, ⟨3, _⟩ => ⟨S256x1000x300, .f32⟩
  | .hbm, ⟨4, _⟩ => ⟨S256x1000x300, .f32⟩
  | .hbm, ⟨5, _⟩ => ⟨S256x1000x1, .f32⟩
  | .hbm, ⟨6, _⟩ => ⟨S256x1000, .f32⟩
  | .hbm, ⟨7, _⟩ => ⟨S256x1, .i32⟩
  | .hbm, ⟨8, _⟩ => ⟨S1, .f32⟩
  | .hbm, ⟨9, _⟩ => ⟨S_, .f32⟩
  | .local _ .vmem, ⟨0, _⟩ => ⟨S4x1000x300, .f32⟩
  | .local _ .vmem, ⟨1, _⟩ => ⟨S4x1000x300, .f32⟩
  | .local _ .vmem, ⟨2, _⟩ => ⟨S4x1000x300, .f32⟩
  | .local _ .vmem, ⟨3, _⟩ => ⟨S4x1000x300, .f32⟩
  | .local _ .vmem, ⟨4, _⟩ => ⟨S4x1000x1, .f32⟩
  | .local _ .vmem, ⟨5, _⟩ => ⟨S4x1000x1, .f32⟩
  | .local _ .vmem, ⟨6, _⟩ => ⟨S256x1000, .f32⟩
  | .local _ .vmem, ⟨7, _⟩ => ⟨S256x1, .i32⟩
  | .local _ .vmem, ⟨8, _⟩ => ⟨S1, .f32⟩
  | _, _ => ⟨S256000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S256x1000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S256000x300_S256x1000x300 : S256000x300.ShapeCasts S256x1000x300
  inb_S4x1000x300_S4x1000x300_0_0_0 : ∀ a, (![0, 0, 0] : Fin 3 → Nat) a + S4x1000x300.size a ≤ S4x1000x300.size a
  h_S4x1000x300 : 0 < S4x1000x300.numel
  shapeCasts_S4x1000x300_S4x1000x300 : S4x1000x300.ShapeCasts S4x1000x300
  reduces_S4x1000x300_S4x1000 : S4x1000x300.Reduces [2] S4x1000
  shapeCasts_S4x1000_S4x1000x1 : S4x1000.ShapeCasts S4x1000x1
  inb_S4x1000x1_S4x1000x1_0_0_0 : ∀ a, (![0, 0, 0] : Fin 3 → Nat) a + S4x1000x1.size a ≤ S4x1000x1.size a
  h_S4x1000x1 : 0 < S4x1000x1.numel
  shapeCasts_S256x1000x1_S256x1000 : S256x1000x1.ShapeCasts S256x1000
  shapeCasts_S256_S256x1 : S256.ShapeCasts S256x1
  inb_S256x1000_S256x1000_0_0 : ∀ a, (![0, 0] : Fin 2 → Nat) a + S256x1000.size a ≤ S256x1000.size a
  h_S256x1000 : 0 < S256x1000.numel
  shapeCasts_S256x1000_S256x1000 : S256x1000.ShapeCasts S256x1000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1000_d1_w32 : S256x1000.Iotas .tc 32 [1]
  broadcasts_S256x1_S256x1000 : S256x1.Broadcasts S256x1000
  natLt_1_32 : 1 < 32
  reduces_S256x1000_S1000 : S256x1000.Reduces [0] S1000
  shapeCasts_S1000_S1x1000 : S1000.ShapeCasts S1x1000
  broadcasts_S1x1000_S256x1000 : S1x1000.Broadcasts S256x1000
  reduces_S1x1000_S1 : S1x1000.Reduces [1] S1
  inb_S1_S1_0 : ∀ a, (![0] : Fin 1 → Nat) a + S1.size a ≤ S1.size a
  h_S1 : 0 < S1.numel
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1000x300.size a ≤ S256x1000x300.size a
  hwx0_0 : ∀ i : grid0.Coords, EltTy.bits .f32 = 32 ∨ (Rect.block (s := S256x1000x300) S4x1000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1000x300.size a ≤ S256x1000x300.size a
  hwx0_1 : ∀ i : grid0.Coords, EltTy.bits .f32 = 32 ∨ (Rect.block (s := S256x1000x300) S4x1000x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1000x1.size a ≤ S256x1000x1.size a
  hwx0_2 : ∀ i : grid0.Coords, EltTy.bits .f32 = 32 ∨ (Rect.block (s := S256x1000x1) S4x1000x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1000.size a ≤ S256x1000.size a
  hwx1_0 : ∀ i : grid1.Coords, EltTy.bits .f32 = 32 ∨ (Rect.block (s := S256x1000) S256x1000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .i32 = 32 ∨ (Rect.block (s := S256x1) S256x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)

variable [Facts₀]

abbrev win0_0 : Pipeline.Window sig grid0 :=
  Pipeline.Window.ofSpec (Memref.whole main_v0) S4x1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x1000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x1000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256000x300 : Shape := ⟨2, ![256000, 300]⟩
abbrev S256 : Shape := ⟨1, ![256]⟩
abbrev S_ : Shape := ⟨0, ![]⟩
abbrev S256000 : Shape := ⟨1, ![256000]⟩
abbrev S256x1000 : Shape := ⟨2, ![256, 1000]⟩
abbrev S256x1 : Shape := ⟨2, ![256, 1]⟩
abbrev S1x1000 : Shape := ⟨2, ![1, 1000]⟩
abbrev S1000 : Shape := ⟨1, ![1000]⟩

abbrev nBuf : Space → Nat
  | .hbm => 49
  | .vmem => 0
  | .smem => 0
  | _ => 0

abbrev bufTy : (tb : Table) → Fin (tcTables nBuf tb) → BufTy
  | .hbm, ⟨0, _⟩ => ⟨S256000x300, .f32⟩
  | .hbm, ⟨1, _⟩ => ⟨S256000x300, .f32⟩
  | .hbm, ⟨2, _⟩ => ⟨S256, .i32⟩
  | .hbm, ⟨3, _⟩ => ⟨S256000x300, .f32⟩
  | .hbm, ⟨4, _⟩ => ⟨S_, .f32⟩
  | .hbm, ⟨5, _⟩ => ⟨S256000x300, .f32⟩
  | .hbm, ⟨6, _⟩ => ⟨S256000x300, .f32⟩
  | .hbm, ⟨7, _⟩ => ⟨S256000x300, .f32⟩
  | .hbm, ⟨8, _⟩ => ⟨S_, .f32⟩
  | .hbm, ⟨9, _⟩ => ⟨S256000, .f32⟩
  | .hbm, ⟨10, _⟩ => ⟨S256000, .f32⟩
  | .hbm, ⟨11, _⟩ => ⟨S256x1000, .f32⟩
  | .hbm, ⟨12, _⟩ => ⟨S256x1, .i32⟩
  | .hbm, ⟨13, _⟩ => ⟨S1x1000, .i32⟩
  | .hbm, ⟨14, _⟩ => ⟨S256x1000, .i32⟩
  | .hbm, ⟨15, _⟩ => ⟨S256x1000, .i32⟩
  | .hbm, ⟨16, _⟩ => ⟨S256x1000, .i1⟩
  | .hbm, ⟨17, _⟩ => ⟨S256x1000, .f32⟩
  | .hbm, ⟨18, _⟩ => ⟨S256x1000, .f32⟩
  | .hbm, ⟨19, _⟩ => ⟨S_, .f32⟩
  | .hbm, ⟨20, _⟩ => ⟨S1000, .f32⟩
  | .hbm, ⟨21, _⟩ => ⟨S1x1000, .f32⟩
  | .hbm, ⟨22, _⟩ => ⟨S_, .f32⟩
  | .hbm, ⟨23, _⟩ => ⟨S1000, .f32⟩
  | .hbm, ⟨24, _⟩ => ⟨S1x1000, .f32⟩
  | .hbm, ⟨25, _⟩ => ⟨S256x1000, .f32⟩
  | .hbm, ⟨26, _⟩ => ⟨S256x1000, .f32⟩
  | .hbm, ⟨27, _⟩ => ⟨S256x1000, .f32⟩
  | .hbm, ⟨28, _⟩ => ⟨S_, .f32⟩
  | .hbm, ⟨29, _⟩ => ⟨S1000, .f32⟩
  | .hbm, ⟨30, _⟩ => ⟨S1x1000, .f32⟩
  | .hbm, ⟨31, _⟩ => ⟨S1x1000, .f32⟩
  | .hbm, ⟨32, _⟩ => ⟨S_, .f32⟩
  | .hbm, ⟨33, _⟩ => ⟨S1x1000, .f32⟩
  | .hbm, ⟨34, _⟩ => ⟨S1x1000, .f32⟩
  | .hbm, ⟨35, _⟩ => ⟨S_, .f32⟩
  | .hbm, ⟨36, _⟩ => ⟨S1x1000, .f32⟩
  | .hbm, ⟨37, _⟩ => ⟨S1x1000, .f32⟩
  | .hbm, ⟨38, _⟩ => ⟨S_, .f32⟩
  | .hbm, ⟨39, _⟩ => ⟨S1x1000, .f32⟩
  | .hbm, ⟨40, _⟩ => ⟨S1x1000, .i1⟩
  | .hbm, ⟨41, _⟩ => ⟨S1x1000, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S256000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  bcast_S_S256000x300 : S_.BroadcastsInDim S256000x300 (![] : Fin 0 → Fin S256000x300.rank)
  reducesTo_S256000x300_S256000_d1 : S256000x300.ReducesTo [1] S256000
  h_S_ : 0 < S_.numel
  shapeCasts_S256000_S256x1000 : S256000.ShapeCasts S256x1000
  bcast_S256_S256x1_0 : S256.BroadcastsInDim S256x1 (![0] : Fin 1 → Fin S256x1.rank)
  bcast_S256x1_S256x1000_0_1 : S256x1.BroadcastsInDim S256x1000 (![0, 1] : Fin 2 → Fin S256x1000.rank)
  bcast_S1x1000_S256x1000_0_1 : S1x1000.BroadcastsInDim S256x1000 (![0, 1] : Fin 2 → Fin S256x1000.rank)
  reducesTo_S256x1000_S1000_d0 : S256x1000.ReducesTo [0] S1000
  bcast_S1000_S1x1000_1 : S1000.BroadcastsInDim S1x1000 (![1] : Fin 1 → Fin S1x1000.rank)
  bcast_S_S1x1000 : S_.BroadcastsInDim S1x1000 (![] : Fin 0 → Fin S1x1000.rank)
  reducesTo_S1x1000_S_d0_1 : S1x1000.ReducesTo [0, 1] S_

variable [Facts₀]

class Facts : Prop extends Facts₀ where

variable [Facts]
-- ==== Proof.RunOut.lean ====
/-
  The idealized kernel's run with its result named.

  The program is two kernel launches among three stretches of host reshapes.  The buffer contents at the
  five segment boundaries form a fold from the launch memory: a host stretch applies its reshapes, a launch
  replaces its output array by what its write-backs leave and keeps every other buffer.  The run below ends
  with the scalar result buffer holding the last boundary's contents at that buffer, and with the three
  argument arrays as launched.
-/
import proofs.«158583_j884763263444_2_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer then holds the contents of the
    last segment boundary at that buffer, and the arguments are unchanged. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunOut

end
-- ==== Proof.Fold.lean ====
/-
  The contents of the buffers at the segment boundaries, read back.

  The scalar result is the second launch's one-element output array re-laid as a scalar.  The second launch
  reads the first launch's output array [256, 1000, 1] re-laid as a [256, 1000] matrix, and the label
  vector [256] re-laid as a column [256, 1].  The first launch reads the two argument matrices
  [256000, 300] re-laid as [256, 1000, 300].  Every re-laying keeps the row-major order of the elements.
-/
import proofs.«158583_j884763263444_2_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.ShloMosaic.Tactic
open Idealize.SL Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The result buffer at the end: the second launch's output array, as a scalar. -/
theorem result_eq (c : Dev nD) : (W5 m ρ c (Proc.devRef .tc main_v6) : S_.Idx → Elt F .f32)
    = shapeCast S_ ((dat1 (V3 m ρ) c).arrAt 2 cfg1.N) shapeCasts_S1_S_ := by
  show StableHlo.after hostOps2 (W4 m ρ c) (Proc.devRef .tc main_v6) = _
  after_results
  exact congrArg (fun X : S1.Idx → Elt F .f32 => shapeCast S_ X shapeCasts_S1_S_) (W4_arr m ρ c 2)

/-- The distance matrix the second launch reads: the first launch's output array, as a matrix. -/
theorem relations_eq (c : Dev nD) : (V3 m ρ c main_v3 : S256x1000.Idx → Elt F .f32)
    = shapeCast S256x1000 ((dat0 (V1 m ρ) c).arrAt 2 cfg0.N) shapeCasts_S256x1000x1_S256x1000 := by
  show StableHlo.after hostOps1 (W2 m ρ c) (Proc.devRef .tc main_v3) = _
  after_results
  exact congrArg (fun X : S256x1000x1.Idx → Elt F .f32 => shapeCast S256x1000 X shapeCasts_S256x1000x1_S256x1000) (W2_arr m ρ c 2)

/-- The label vector is untouched by the first host stretch and by the first launch. -/
theorem labels_kept (c : Dev nD) : W2 m ρ c (Proc.devRef .tc main_arg2) = m ((c.tc : Thread nD τ).loc main_arg2) := by
  rw [W2_of_ne m ρ c main_arg2 (by decide)]
  show StableHlo.after hostOps0 (W0 m ρ c) (Proc.devRef .tc main_arg2) = _
  after_results

/-- The label column the second launch reads: the label vector, as a column. -/
theorem labelcol_eq (c : Dev nD) : (V3 m ρ c main_v4 : S256x1.Idx → Elt F .i32)
    = shapeCast S256x1 (m ((c.tc : Thread nD τ).loc main_arg2)) shapeCasts_S256_S256x1 := by
  show StableHlo.after hostOps1 (W2 m ρ c) (Proc.devRef .tc main_v4) = _
  after_results
  exact congrArg (fun X : S256.Idx → Elt F .i32 => shapeCast S256x1 X shapeCasts_S256_S256x1) (labels_kept m ρ c)

/-- The first operand of the first launch: the first argument matrix, as [256, 1000, 300]. -/
theorem attr3_eq (c : Dev nD) : (V1 m ρ c main_v0 : S256x1000x300.Idx → Elt F .f32)
    = shapeCast S256x1000x300 (m ((c.tc : Thread nD τ).loc main_arg0)) shapeCasts_S256000x300_S256x1000x300 := by
  show StableHlo.after hostOps0 (W0 m ρ c) (Proc.devRef .tc main_v0) = _
  after_results
  rfl

/-- The second operand of the first launch: the second argument matrix, as [256, 1000, 300]. -/
theorem emb3_eq (c : Dev nD) : (V1 m ρ c main_v1 : S256x1000x300.Idx → Elt F .f32)
    = shapeCast S256x1000x300 (m ((c.tc : Thread nD τ).loc main_arg1)) shapeCasts_S256000x300_S256x1000x300 := by
  show StableHlo.after hostOps0 (W0 m ρ c) (Proc.devRef .tc main_v1) = _
  after_results
  rfl

end Cert.KernelIdeal.Fold

end
-- ==== Proof.DistPay.lean ====
/-
  One entry of the distance block.

  The first kernel's body, at a block of four anchors, computes for anchor p and class q the number
  sqrt (sum over d of ((E p q d - A p q d) + eps)^2), a lane sum over the 300 features stored with a
  trailing unit axis.  The reference computes for row r of the two [256000, 300] matrices the number
  sqrt (0 + sum over d of ((e r d - a r d) + eps)^2).  When row (p, q) of the two blocks is row r of
  the two matrices these are the same extended real: the same word eps on both sides, the same square
  root, and the host sum's initial zero is neutral.
-/
import proofs.«158583_j884763263444_2_alg».proof.Proof.Gen.KernelIdeal.Skeleton
import proofs.«158583_j884763263444_2_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.DistPay

open Idealize.ShloMosaic Idealize.ShloMosaic.ValueIdx
open Cert.KernelIdeal Cert.KernelIdeal.Gen

/-- The squared shifted difference of one feature, the summand on both sides. -/
def sqd (x y : EReal) : EReal :=
  ((x - y) + Ideal.ofBits .f32 0x358637BD#32) * ((x - y) + Ideal.ofBits .f32 0x358637BD#32)

/-- The reference's distance of row `r`: the square root of the sum of the squared shifted differences. -/
theorem ref_row (a e : (⟨S256000x300, .f32⟩ : BufTy).Contents (Elt Ideal)) (r : Fin 256000) :
    Cert.ReferenceIdeal.Read.val_main_v5 (F := Ideal) a e (ix1 r)
      = Ideal.sqrt (∑ k : Fin 300, sqd (e (ix2 r k)) (a (ix2 r k))) := by
  rw [Cert.ReferenceIdeal.Read.val_main_v5_apply, Cert.ReferenceIdeal.Read.val_main_v4_apply]
  show Ideal.sqrt (Ideal.ofBits .f32 0x00000000#32 + _) = _
  rw [Ideal.ofBits_zero_f32, zero_add]
  refine congrArg Ideal.sqrt (Finset.sum_congr rfl fun k _ => ?_)
  have hi : Cert.ReferenceIdeal.Read.idx_main_v4 (ix1 r) k = ix2 r k :=
    funext fun d => Fin.ext (by match d with | ⟨0, _⟩ => rfl | ⟨1, _⟩ => rfl)
  rw [hi]
  rfl

/-- The kernel's entry (p, q) of a block: the same expression of row (p, q) of the two loaded blocks. -/
theorem pay_entry (xE xA : Vec Ideal S4x1000x300 .f32) (p : Fin 4) (q : Fin 1000) (z : Fin 1) :
    k0_pay1 (F := Ideal) xE xA (ix3 p q z)
      = Ideal.sqrt (∑ k : Fin 300, sqd (xE (ix3 p q k)) (xA (ix3 p q k))) := by
  unfold k0_pay1
  refine congrArg Ideal.sqrt ?_
  refine (shapeCast_apply _ shapeCasts_S4x1000_S4x1000x1 (ix3 p q z) (ix2 p q) ?_).trans ?_
  · rw [Shape.rowMajor_val_two, Shape.rowMajor_val_three]
    show p.val * 1000 + q.val = (p.val * 1000 + q.val) * 1 + z.val
    have hz : z.val < 1 := z.isLt
    omega
  refine (Ideal.multiReduction_add_single _ _ reduces_S4x1000x300_S4x1000 _ _ (ix2 p q)).trans ?_
  refine Finset.sum_congr rfl fun k _ => ?_
  have hl : reduces_S4x1000x300_S4x1000.lift (ix2 p q) k = ix3 p q k :=
    funext fun d => Fin.ext (by match d with | ⟨0, _⟩ => rfl | ⟨1, _⟩ => rfl | ⟨2, _⟩ => rfl)
  rw [hl, shapeCast_self, shapeCast_self]
  rfl

/-- Entry (p, q) of the kernel's block is the reference's distance of row `r`, when row (p, q) of the loaded
    blocks is row `r` of the argument matrices. -/
theorem pay_row (xE xA : Vec Ideal S4x1000x300 .f32) (a e : (⟨S256000x300, .f32⟩ : BufTy).Contents (Elt Ideal))
    (p : Fin 4) (q : Fin 1000) (z : Fin 1) (r : Fin 256000)
    (hA : ∀ k : Fin 300, xA (ix3 p q k) = a (ix2 r k)) (hE : ∀ k : Fin 300, xE (ix3 p q k) = e (ix2 r k)) :
    k0_pay1 (F := Ideal) xE xA (ix3 p q z) = Cert.ReferenceIdeal.Read.val_main_v5 (F := Ideal) a e (ix1 r) := by
  rw [pay_entry, ref_row]
  exact congrArg Ideal.sqrt (Finset.sum_congr rfl fun k _ => by rw [hA k, hE k])

end Cert.KernelIdeal.DistPay

end
-- ==== Proof.DistArray.lean ====
/-
  The first launch's output array.

  The grid has 64 points; point t handles anchors 4t .. 4t+3, all 1000 classes.  Its two input blocks are
  rows (4t+p)*1000 + q of the two argument matrices (the matrices re-laid as [256, 1000, 300]), and what it
  writes back is the block of ONE whole array: entry (b, q, 0) is the reference's distance of row
  b*1000 + q.  The 64 blocks tile the [256, 1000, 1] array, so after the launch the array is that function
  everywhere; re-laid as a [256, 1000] matrix it is the reference's distance matrix.
-/
import proofs.«158583_j884763263444_2_alg».proof.Proof.Gen.KernelIdeal.Frame
import proofs.«158583_j884763263444_2_alg».proof.Proof.Fold
import proofs.«158583_j884763263444_2_alg».proof.Proof.DistPay

set_option maxRecDepth 16384

noncomputable section

namespace Cert.KernelIdeal.DistArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem zero3 : (![0, 0, 0] : Fin 3 → Nat) = fun _ => 0 := funext fun a => by fin_cases a <;> rfl

/-- The row of the argument matrices that anchor `p`, class `q` of point `t`'s block is. -/
def rowAt (t : Fin cfg0.N) (p : Fin 4) (q : Fin 1000) : Fin 256000 :=
  ⟨(4 * t.val + p.val) * 1000 + q.val, by
    have ht : t.val < 64 := lt_of_lt_of_eq t.isLt N_0
    have hp := p.isLt; have hq := q.isLt; omega⟩

/-- The whole output array: at (b, q, 0) the reference's distance of row b*1000 + q. -/
def dist (a e : (⟨S256000x300, .f32⟩ : BufTy).Contents (Elt Ideal)) : S256x1000x1.Idx → EReal := fun i =>
  Cert.ReferenceIdeal.Read.val_main_v5 (F := Ideal) a e (ix1 ⟨(i 0).val * 1000 + (i 1).val, by
    have h0 : (i 0).val < 256 := (i 0).isLt; have h1 : (i 1).val < 1000 := (i 1).isLt; omega⟩)

/-- The printed index maps over the grid: every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Row (p, q) of point `t`'s first input block is row `rowAt t p q` of the first argument matrix. -/
theorem attr_block (c : Dev nD) (t : Fin cfg0.N) (p : Fin 4) (q : Fin 1000) (k : Fin 300) :
    iblk0 (V1 m ρ) c 0 t (ix3 p q k) = m ((c.tc : Thread nD τ).loc main_arg0) (ix2 (rowAt t p q) k) := by
  show V1 m ρ c main_v0 (((cfg0.win 0).blk t).view.emb (ix3 p q k)) = _
  rw [Fold.attr3_eq m ρ c]
  refine shapeCast_apply _ _ _ (ix2 (rowAt t p q) k) ?_
  show (S256000x300.rowMajor (ix2 (rowAt t p q) k)).val
    = (S256x1000x300.rowMajor (((cfg0.win 0).blk t).view.emb (ix3 p q k))).val
  rw [Shape.rowMajor_val_two, Shape.rowMajor_val_three]
  obtain ⟨e0, e1, e2, -⟩ := idx_facts t
  show ((4 * t.val + p.val) * 1000 + q.val) * 300 + k.val
    = ((win0_0.index t (0 : Fin 3) * 4 + 1 * p.val) * 1000 + (win0_0.index t (1 : Fin 3) * 1000 + 1 * q.val)) * 300
      + (win0_0.index t (2 : Fin 3) * 300 + 1 * k.val)
  rw [e0, e1, e2]; omega

/-- Row (p, q) of point `t`'s second input block is row `rowAt t p q` of the second argument matrix. -/
theorem emb_block (c : Dev nD) (t : Fin cfg0.N) (p : Fin 4) (q : Fin 1000) (k : Fin 300) :
    iblk0 (V1 m ρ) c 1 t (ix3 p q k) = m ((c.tc : Thread nD τ).loc main_arg1) (ix2 (rowAt t p q) k) := by
  show V1 m ρ c main_v1 (((cfg0.win 1).blk t).view.emb (ix3 p q k)) = _
  rw [Fold.emb3_eq m ρ c]
  refine shapeCast_apply _ _ _ (ix2 (rowAt t p q) k) ?_
  show (S256000x300.rowMajor (ix2 (rowAt t p q) k)).val
    = (S256x1000x300.rowMajor (((cfg0.win 1).blk t).view.emb (ix3 p q k))).val
  rw [Shape.rowMajor_val_two, Shape.rowMajor_val_three]
  obtain ⟨-, -, -, e0, e1, e2, -⟩ := idx_facts t
  show ((4 * t.val + p.val) * 1000 + q.val) * 300 + k.val
    = ((win0_1.index t (0 : Fin 3) * 4 + 1 * p.val) * 1000 + (win0_1.index t (1 : Fin 3) * 1000 + 1 * q.val)) * 300
      + (win0_1.index t (2 : Fin 3) * 300 + 1 * k.val)
  rw [e0, e1, e2]; omega

/-- What point `t` writes back is its block of `dist`. -/
theorem flushed_eq (c : Dev nD) (t : Fin cfg0.N) :
    (dat0 (V1 m ρ) c).flushed 2 t
      = ((cfg0.win 2).blk t).view.read (Elt Ideal)
          (dist (m ((c.tc : Thread nD τ).loc main_arg0)) (m ((c.tc : Thread nD τ).loc main_arg1))) := by
  show (cfg0.win 2).cut (grid0.coords t) ((dat0 (V1 m ρ) c).after 2 t) = _
  rw [after0_2]
  unfold out0_2
  rw [View.canon_unit_zero zero3]
  simp only [View.ld_unit_zero (S := S4x1000x300) zero3]
  funext j
  obtain ⟨p, q, z, rfl⟩ : ∃ (p : Fin 4) (q : Fin 1000) (z : Fin 1), j = ix3 p q z := ⟨j 0, j 1, j 2, eq_ix3 j⟩
  refine (DistPay.pay_row (iblk0 (V1 m ρ) c 1 t) (iblk0 (V1 m ρ) c 0 t) _ _ p q z (rowAt t p q)
    (attr_block m ρ c t p q) (emb_block m ρ c t p q)).trans ?_
  show _ = dist _ _ (((cfg0.win 2).blk t).view.emb (ix3 p q z))
  unfold dist
  refine congrArg (Cert.ReferenceIdeal.Read.val_main_v5 (F := Ideal) _ _) ?_
  obtain ⟨-, -, -, -, -, -, e0, e1, e2⟩ := idx_facts t
  funext d
  apply Fin.ext
  match d with
  | ⟨0, _⟩ =>
    show (4 * t.val + p.val) * 1000 + q.val
      = (win0_2.index t (0 : Fin 3) * 4 + 1 * p.val) * 1000 + (win0_2.index t (1 : Fin 3) * 1000 + 1 * q.val)
    rw [e0, e1]; omega

/-- An index of the array is in point `t`'s block iff each coordinate is in the block's range on its axis. -/
theorem mem_blk (t : Fin cfg0.N) (i : S256x1000x1.Idx) :
    i ∈ ((cfg0.win 2).blk t).view.set
      ↔ ∀ a : Fin 3, win0_2.index t a * S4x1000x1.size a ≤ (i a).val ∧ (i a).val < win0_2.index t a * S4x1000x1.size a + S4x1000x1.size a := by
  show i ∈ ((View.whole main_v2).slice (win0_2.rect t)).set ↔ _
  rw [View.set_slice_whole, Rect.mem_set_unit]
  exact Iff.rfl

/-- Every index of the array is in the block of the point that handles its anchor. -/
theorem cover (i : S256x1000x1.Idx) :
    ∃ t : Fin cfg0.N, (cfg0.win 2).flush t = true ∧ i ∈ ((cfg0.win 2).blk t).view.set := by
  have h0 : (i 0).val < 256 := (i 0).isLt
  have h1 : (i 1).val < 1000 := (i 1).isLt
  have h2 : (i 2).val < 1 := (i 2).isLt
  let t : Fin cfg0.N := ⟨(i 0).val / 4, lt_of_lt_of_eq (by omega : (i 0).val / 4 < 64) N_0.symm⟩
  obtain ⟨-, -, -, -, -, -, e0, e1, e2⟩ := idx_facts t
  have e0' : win0_2.index t (0 : Fin 3) = (i 0).val / 4 := e0
  refine ⟨t, flush0_2 t, ?_⟩
  rw [mem_blk]
  intro a
  match a with
  | ⟨0, _⟩ =>
    show win0_2.index t (0 : Fin 3) * 4 ≤ (i 0).val ∧ (i 0).val < win0_2.index t (0 : Fin 3) * 4 + 4
    rw [e0']; omega
  | ⟨1, _⟩ =>
    show win0_2.index t (1 : Fin 3) * 1000 ≤ (i 1).val ∧ (i 1).val < win0_2.index t (1 : Fin 3) * 1000 + 1000
    rw [e1]; omega
  | ⟨2, _⟩ =>
    show win0_2.index t (2 : Fin 3) * 1 ≤ (i 2).val ∧ (i 2).val < win0_2.index t (2 : Fin 3) * 1 + 1
    rw [e2]; omega

/-- After the first launch its output array is `dist` of the two argument matrices. -/
theorem final (c : Dev nD) :
    (dat0 (V1 m ρ) c).arrAt 2 cfg0.N
      = dist (m ((c.tc : Thread nD τ).loc main_arg0)) (m ((c.tc : Thread nD τ).loc main_arg1)) :=
  (dat0 (V1 m ρ) c).arrAt_eq_of_cover 2 _ (fun t _ => flushed_eq m ρ c t) cover

/-- `dist` re-laid as a matrix is the reference's distance matrix. -/
theorem dist_matrix (a e : (⟨S256000x300, .f32⟩ : BufTy).Contents (Elt Ideal)) :
    shapeCast S256x1000 (dist a e) shapeCasts_S256x1000x1_S256x1000
      = Cert.ReferenceIdeal.Read.val_main_v6 (F := Ideal) a e := by
  funext i
  obtain ⟨b, q, rfl⟩ : ∃ (b : Fin 256) (q : Fin 1000), i = ix2 b q := ⟨i 0, i 1, eq_ix2 i⟩
  rw [Cert.ReferenceIdeal.Read.val_main_v6_apply]
  refine (shapeCast_apply _ shapeCasts_S256x1000x1_S256x1000 (ix2 b q) (ix3 b q (0 : Fin 1)) ?_).trans ?_
  · rw [Shape.rowMajor_val_two, Shape.rowMajor_val_three]
    show (b.val * 1000 + q.val) * 1 + 0 = b.val * 1000 + q.val
    omega
  unfold dist
  refine congrArg (Cert.ReferenceIdeal.Read.val_main_v5 (F := Ideal) a e) ?_
  funext d
  apply Fin.ext
  match d with
  | ⟨0, _⟩ => rfl

/-- The distance matrix the second launch reads is the reference's. -/
theorem relations (c : Dev nD) :
    (V3 m ρ c main_v3 : S256x1000.Idx → Elt Ideal .f32)
      = Cert.ReferenceIdeal.Read.val_main_v6 (F := Ideal) (m ((c.tc : Thread nD τ).loc main_arg0)) (m ((c.tc : Thread nD τ).loc main_arg1)) := by
  rw [Fold.relations_eq m ρ c, final m ρ c]
  exact dist_matrix _ _

end Cert.KernelIdeal.DistArray

end
-- ==== Proof.Mine.lean ====
/-
  The second kernel's body against the reference's mining of the hardest triplets.

  From the distance matrix R [256, 1000] and the label column, both sides compute, operation by operation,
    mask b q   = 1 if q = label b, else 0
    hp q       = max over b of R b q * mask b q                    (from -inf)
    hn q       = min over b of (R b q + (max over b' of R b' q) * mask b q)   (from +inf)
    tr q       = max (hp q - hn q + 1) 0
    loss       = (sum over q of tr q) / ((sum over q of [tr q > w]) + w),   w the word 0x24E69595
  with the same words for the constants.  The two texts differ only in how a stage is laid out: the kernel
  keeps a column reduction as a vector re-laid as a one-row matrix where the reference broadcasts it there, splats
  a scalar where the reference broadcasts a rank-0 constant, turns a bit into a float through a 32-bit integer where
  the reference converts the bit, and sums a one-row matrix into a one-element vector where the reference sums it
  into a scalar from an initial zero.  Each of these pairs is one function at the ideal instance; a maximum or a
  minimum over a column is a fold of a commutative, associative operation over the same set of indices on both
  sides, so no order matters, and no law of the extended reals beyond 0 + x = x is used.
-/
import proofs.«158583_j884763263444_2_alg».proof.Proof.Gen.KernelIdeal.Skeleton
import proofs.«158583_j884763263444_2_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Mine

open Idealize.ShloMosaic Idealize.ShloMosaic.ValueIdx
open Cert.KernelIdeal Cert.KernelIdeal.Gen
open Cert.ReferenceIdeal.Read

/-! ## The layout pairs -/

/-- A column maximum from -inf: the kernel's reduction is the host's. -/
theorem colmax_eq (X : FVec Ideal S256x1000 .f32) (h' : S256x1000.ReducesTo [0] S1000) (hu : 0 < S_.numel) :
    multiReduction .maximumf [0] S1000 X 0xFF800000#32 reduces_S256x1000_S1000 (.inl rfl) rfl
      = Host.reduce FloatOps.maximumf X (constant (F := Ideal) S_ .f32 0xFF800000#32) h' hu := by
  funext j
  refine (multiReduction_maximumf_eq_fold X _ reduces_S256x1000_S1000 _ _ j).trans ?_
  refine Eq.trans ?_ (Host.reduce_eq_fold FloatOps.maximumf X _ h' hu j).symm
  rw [Shape.ReducesTo.drop_eq_drop h' reduces_S256x1000_S1000]
  rfl

/-- A column minimum from +inf: the kernel's reduction is the host's. -/
theorem colmin_eq (X : FVec Ideal S256x1000 .f32) (h' : S256x1000.ReducesTo [0] S1000) (hu : 0 < S_.numel) :
    multiReduction .minimumf [0] S1000 X 0x7F800000#32 reduces_S256x1000_S1000 (.inl rfl) rfl
      = Host.reduce FloatOps.minimumf X (constant (F := Ideal) S_ .f32 0x7F800000#32) h' hu := by
  funext j
  refine (multiReduction_minimumf_eq_fold X _ reduces_S256x1000_S1000 _ _ j).trans ?_
  refine Eq.trans ?_ (Host.reduce_eq_fold FloatOps.minimumf X _ h' hu j).symm
  rw [Shape.ReducesTo.drop_eq_drop h' reduces_S256x1000_S1000]
  rfl

/-- A vector as a one-row matrix: the re-laying is the broadcast along the new leading axis. -/
theorem row_eq (v : FVec Ideal S1000 .f32) (hb : S1000.BroadcastsInDim S1x1000 (![1] : Fin 1 → Fin S1x1000.rank)) :
    shapeCast S1x1000 v shapeCasts_S1000_S1x1000 = broadcastInDim S1x1000 ![1] hb v := by
  funext i
  obtain ⟨z, q, rfl⟩ : ∃ (z : Fin 1) (q : Fin 1000), i = ix2 z q := ⟨i 0, i 1, eq_ix2 i⟩
  refine (shapeCast_apply v shapeCasts_S1000_S1x1000 (ix2 z q) (ix1 q) ?_).trans
    (broadcastInDim_apply _ hb v (ix2 z q) (ix1 q) ?_).symm
  · rw [Shape.rowMajor_val_one, Shape.rowMajor_val_two]
    show q.val = z.val * 1000 + q.val
    have hz : z.val < 1 := z.isLt
    omega
  · intro d
    match d with
    | ⟨0, _⟩ => show q.val = if (1000 : Nat) = 1 then 0 else q.val; rw [if_neg (by decide)]

/-- One row repeated over the 256 anchors: the vector broadcast is the host's broadcast. -/
theorem rows_eq (v : FVec Ideal S1x1000 .f32) (hb : S1x1000.BroadcastsInDim S256x1000 (![0, 1] : Fin 2 → Fin S256x1000.rank)) :
    broadcastTo S256x1000 v broadcasts_S1x1000_S256x1000 = broadcastInDim S256x1000 ![0, 1] hb v := by
  funext i
  obtain ⟨b, q, rfl⟩ : ∃ (b : Fin 256) (q : Fin 1000), i = ix2 b q := ⟨i 0, i 1, eq_ix2 i⟩
  refine (broadcastTo_apply v broadcasts_S1x1000_S256x1000 (ix2 b q) (ix2 (0 : Fin 1) q) ?_).trans
    (broadcastInDim_apply _ hb v (ix2 b q) (ix2 (0 : Fin 1) q) ?_).symm
  · intro d
    match d with
    | ⟨0, _⟩ => show 0 = if (1 : Nat) = 1 then 0 else b.val; rw [if_pos rfl]
    | ⟨1, _⟩ => show q.val = if (1000 : Nat) = 1 then 0 else q.val; rw [if_neg (by decide)]
  · intro d
    match d with
    | ⟨0, _⟩ => show 0 = if (1 : Nat) = 1 then 0 else b.val; rw [if_pos rfl]
    | ⟨1, _⟩ => show q.val = if (1000 : Nat) = 1 then 0 else q.val; rw [if_neg (by decide)]

/-- A scalar word splat over a row: the host's broadcast of the rank-0 constant. -/
theorem splat_eq (w : BitVec 32) (hb : S_.BroadcastsInDim S1x1000 (![] : Fin 0 → Fin S1x1000.rank)) :
    (broadcast S1x1000 (Scalar.ofBits (F := Ideal) .f32 w) : FVec Ideal S1x1000 .f32)
      = broadcastInDim S1x1000 ![] hb (constant (F := Ideal) S_ .f32 w) := by
  funext i
  exact (broadcastInDim_apply _ hb (constant (F := Ideal) S_ .f32 w) i (fun a => a.elim0) (fun a => a.elim0)).symm

/-- One bit as a float: through a zero-extended 32-bit integer read signed, or read unsigned directly. -/
theorem bit_float (p : BitVec 1) :
    FloatOps.sitofp (F := Ideal) .f32 (p.setWidth 32) = FloatOps.uitofp (F := Ideal) .f32 p := by
  have h : (p.setWidth 32).toInt = (p.toNat : Int) := by
    rcases BitVec.eq_zero_or_eq_one p with h | h <;> subst h <;> decide
  show (((p.setWidth 32).toInt : ℝ) : EReal) = ((p.toNat : ℝ) : EReal)
  rw [h, Int.cast_natCast]

theorem bits_float {s : Shape} (p : IVec s 1) (hlt : 1 < 32) :
    (sitofp .f32 (extui 32 p hlt) : FVec Ideal s .f32) = uitofp .f32 p :=
  funext fun i => bit_float (p i)

/-! ## The kernel's stages -/

/-- The kernel's positive mask from the label column. -/
def kMask (L : IVec S256x1 32) : FVec Ideal S256x1000 .f32 :=
  sitofp .f32 (extui 32 (cmpi .eq (iota .tc S256x1000 32 [1] iota_S256x1000_d1_w32)
    (broadcastTo S256x1000 (shapeCast S256x1 (shapeCast S256x1 L shapeCasts_S256x1_S256x1) shapeCasts_S256x1_S256x1)
      broadcasts_S256x1_S256x1000)) natLt_1_32)

/-- A column maximum kept as a one-row matrix. -/
def kColMax (X : FVec Ideal S256x1000 .f32) : FVec Ideal S1x1000 .f32 :=
  shapeCast S1x1000 (multiReduction .maximumf [0] S1000 X 0xFF800000#32 reduces_S256x1000_S1000 (.inl rfl) rfl)
    shapeCasts_S1000_S1x1000

/-- A column minimum kept as a one-row matrix. -/
def kColMin (X : FVec Ideal S256x1000 .f32) : FVec Ideal S1x1000 .f32 :=
  shapeCast S1x1000 (multiReduction .minimumf [0] S1000 X 0x7F800000#32 reduces_S256x1000_S1000 (.inl rfl) rfl)
    shapeCasts_S1000_S1x1000

/-- The kernel's clipped triplet row. -/
def kTriplet (R M : FVec Ideal S256x1000 .f32) : FVec Ideal S1x1000 .f32 :=
  maximumf
    (addf
      (subf (kColMax (mulf R M))
        (kColMin (addf R (mulf (broadcastTo S256x1000 (kColMax R) broadcasts_S1x1000_S256x1000) M))))
      (broadcast S1x1000 (Scalar.ofBits (F := Ideal) .f32 0x3F800000#32)))
    (broadcast S1x1000 (Scalar.ofBits (F := Ideal) .f32 0x00000000#32))

/-- The kernel's body is these stages, then the two sums and the quotient. -/
theorem pay_unfold (v0 : Vec Ideal S256x1000 .f32) (v2 : Vec Ideal S256x1 .i32) :
    k1_pay1 (F := Ideal) v0 v2
      = divf
          (multiReduction .add [1] S1 (kTriplet (shapeCast S256x1000 v0 shapeCasts_S256x1000_S256x1000) (kMask v2))
            0x00000000#32 reduces_S1x1000_S1 (.inl rfl) rfl)
          (addf
            (multiReduction .add [1] S1
              (sitofp .f32 (extui 32 (cmpf .ogt (kTriplet (shapeCast S256x1000 v0 shapeCasts_S256x1000_S256x1000) (kMask v2))
                (broadcast S1x1000 (Scalar.ofBits (F := Ideal) .f32 0x24E69595#32))) natLt_1_32))
              0x00000000#32 reduces_S1x1000_S1 (.inl rfl) rfl)
            (broadcast S1 (Scalar.ofBits (F := Ideal) .f32 0x24E69595#32))) := rfl

/-! ## Each stage is the reference's -/

theorem kColMax_eq (X : FVec Ideal S256x1000 .f32) (h' : S256x1000.ReducesTo [0] S1000) (hu : 0 < S_.numel)
    (hb : S1000.BroadcastsInDim S1x1000 (![1] : Fin 1 → Fin S1x1000.rank)) :
    kColMax X = broadcastInDim S1x1000 ![1] hb
      (Host.reduce FloatOps.maximumf X (constant (F := Ideal) S_ .f32 0xFF800000#32) h' hu) := by
  unfold kColMax
  rw [colmax_eq X h' hu]
  exact row_eq _ hb

theorem kColMin_eq (X : FVec Ideal S256x1000 .f32) (h' : S256x1000.ReducesTo [0] S1000) (hu : 0 < S_.numel)
    (hb : S1000.BroadcastsInDim S1x1000 (![1] : Fin 1 → Fin S1x1000.rank)) :
    kColMin X = broadcastInDim S1x1000 ![1] hb
      (Host.reduce FloatOps.minimumf X (constant (F := Ideal) S_ .f32 0x7F800000#32) h' hu) := by
  unfold kColMin
  rw [colmin_eq X h' hu]
  exact row_eq _ hb

/-- The kernel's mask of the label vector's column is the reference's one-hot matrix. -/
theorem kMask_eq (lab : (⟨S256, .i32⟩ : BufTy).Contents (Elt Ideal)) :
    kMask (shapeCast S256x1 lab shapeCasts_S256_S256x1) = val_main_v7 (F := Ideal) lab := by
  unfold kMask
  rw [bits_float, shapeCast_self, shapeCast_self]
  funext i
  obtain ⟨b, q, rfl⟩ : ∃ (b : Fin 256) (q : Fin 1000), i = ix2 b q := ⟨i 0, i 1, eq_ix2 i⟩
  show FloatOps.uitofp (F := Ideal) .f32 (IntOp.cmpi .eq (iota .tc S256x1000 32 [1] iota_S256x1000_d1_w32 (ix2 b q))
      (broadcastTo S256x1000 (shapeCast S256x1 lab shapeCasts_S256_S256x1) broadcasts_S256x1_S256x1000 (ix2 b q)))
    = FloatOps.uitofp (F := Ideal) .f32 (IntOp.cmpi .eq (val_main_call0_v2 (F := Ideal) lab (ix2 b q)) (val_main_call0_v3 (F := Ideal) (ix2 b q)))
  have hi : iota .tc S256x1000 32 [1] iota_S256x1000_d1_w32 (ix2 b q) = BitVec.ofNat 32 q.val :=
    iota_single_apply .tc S256x1000 32 1 iota_S256x1000_d1_w32 (ix2 b q)
  have hl : broadcastTo S256x1000 (shapeCast S256x1 lab shapeCasts_S256_S256x1) broadcasts_S256x1_S256x1000 (ix2 b q)
      = lab (ix1 b) := by
    refine (broadcastTo_apply _ broadcasts_S256x1_S256x1000 (ix2 b q) (ix2 b (0 : Fin 1)) ?_).trans
      (shapeCast_apply lab shapeCasts_S256_S256x1 (ix2 b (0 : Fin 1)) (ix1 b) ?_)
    · intro d
      match d with
      | ⟨0, _⟩ => show b.val = if (256 : Nat) = 1 then 0 else b.val; rw [if_neg (by decide)]
      | ⟨1, _⟩ => show 0 = if (1 : Nat) = 1 then 0 else q.val; rw [if_pos rfl]
    · rw [Shape.rowMajor_val_one, Shape.rowMajor_val_two]
      show b.val = b.val * 1 + 0
      omega
  have hr2 : val_main_call0_v2 (F := Ideal) lab (ix2 b q) = lab (ix1 b) := by
    rw [val_main_call0_v2_apply, val_main_call0_v0_apply]
    exact congrArg lab (funext fun d => Fin.ext (by match d with | ⟨0, _⟩ => rfl))
  have hr3 : val_main_call0_v3 (F := Ideal) (ix2 b q) = BitVec.ofNat 32 q.val := by
    rw [val_main_call0_v3_apply, val_main_call0_v1_apply]
  rw [hi, hl, hr2, hr3]
  refine congrArg (FloatOps.uitofp (F := Ideal) .f32) ?_
  show BitVec.ofBool (BitVec.ofNat 32 q.val == lab (ix1 b)) = BitVec.ofBool (lab (ix1 b) == BitVec.ofNat 32 q.val)
  rw [Bool.beq_comm]

/-- The kernel's clipped triplet row of the reference's distance matrix and one-hot matrix is the reference's. -/
theorem kTriplet_eq (a e : (⟨S256000x300, .f32⟩ : BufTy).Contents (Elt Ideal)) (lab : (⟨S256, .i32⟩ : BufTy).Contents (Elt Ideal)) :
    kTriplet (val_main_v6 (F := Ideal) a e) (val_main_v7 (F := Ideal) lab) = val_main_v21 (F := Ideal) a e lab := by
  unfold kTriplet
  rw [kColMax_eq _ Cert.ReferenceIdeal.Facts₀.reducesTo_S256x1000_S1000_d0 Cert.ReferenceIdeal.Facts₀.h_S_ Cert.ReferenceIdeal.Facts₀.bcast_S1000_S1x1000_1,
    kColMax_eq _ Cert.ReferenceIdeal.Facts₀.reducesTo_S256x1000_S1000_d0 Cert.ReferenceIdeal.Facts₀.h_S_ Cert.ReferenceIdeal.Facts₀.bcast_S1000_S1x1000_1,
    kColMin_eq _ Cert.ReferenceIdeal.Facts₀.reducesTo_S256x1000_S1000_d0 Cert.ReferenceIdeal.Facts₀.h_S_ Cert.ReferenceIdeal.Facts₀.bcast_S1000_S1x1000_1,
    rows_eq _ Cert.ReferenceIdeal.Facts₀.bcast_S1x1000_S256x1000_0_1,
    splat_eq _ Cert.ReferenceIdeal.Facts₀.bcast_S_S1x1000, splat_eq _ Cert.ReferenceIdeal.Facts₀.bcast_S_S1x1000]
  rfl

/-! ## The loss -/

theorem one_axis : ∀ b : Fin S1.rank, S1.size b = 1 := fun b => by
  match b with
  | ⟨0, _⟩ => rfl

/-- The kernel's one output entry is the reference's scalar. -/
theorem loss_eq (a e : (⟨S256000x300, .f32⟩ : BufTy).Contents (Elt Ideal)) (lab : (⟨S256, .i32⟩ : BufTy).Contents (Elt Ideal))
    (j : S1.Idx) :
    k1_pay1 (F := Ideal) (val_main_v6 (F := Ideal) a e) (shapeCast S256x1 lab shapeCasts_S256_S256x1) j
      = val_main_v28 (F := Ideal) a e lab ix0 := by
  rw [pay_unfold, shapeCast_self, kMask_eq, kTriplet_eq, bits_float, splat_eq _ Cert.ReferenceIdeal.Facts₀.bcast_S_S1x1000]
  show Ideal.div
      (multiReduction (F := Ideal) .add [1] S1 (val_main_v21 (F := Ideal) a e lab) 0x00000000#32 reduces_S1x1000_S1 (.inl rfl) rfl j)
      (multiReduction (F := Ideal) .add [1] S1 (val_main_v24 (F := Ideal) a e lab) 0x00000000#32 reduces_S1x1000_S1 (.inl rfl) rfl j
        + Ideal.ofBits .f32 0x24E69595#32)
    = Ideal.div (val_main_v26 (F := Ideal) a e lab ix0) (val_main_v25 (F := Ideal) a e lab ix0 + Ideal.ofBits .f32 0x24E69595#32)
  rw [val_main_v26_apply, val_main_v25_apply]
  have hz6 : (val_main_cst_6 (F := Ideal)) (Shape.Idx.first Cert.ReferenceIdeal.Facts₀.h_S_) = 0 := Ideal.ofBits_zero_f32
  have hz7 : (val_main_cst_7 (F := Ideal)) (Shape.Idx.first Cert.ReferenceIdeal.Facts₀.h_S_) = 0 := Ideal.ofBits_zero_f32
  rw [hz6, hz7, zero_add, zero_add]
  have s1 : multiReduction (F := Ideal) .add [1] S1 (val_main_v21 (F := Ideal) a e lab) 0x00000000#32 reduces_S1x1000_S1 (.inl rfl) rfl j
      = ∑ i : S1x1000.Idx, val_main_v21 (F := Ideal) a e lab i :=
    Ideal.multiReduction_add_total (val_main_v21 (F := Ideal) a e lab) _ reduces_S1x1000_S1 one_axis _ _ j
  have s2 : multiReduction (F := Ideal) .add [1] S1 (val_main_v24 (F := Ideal) a e lab) 0x00000000#32 reduces_S1x1000_S1 (.inl rfl) rfl j
      = ∑ i : S1x1000.Idx, val_main_v24 (F := Ideal) a e lab i :=
    Ideal.multiReduction_add_total (val_main_v24 (F := Ideal) a e lab) _ reduces_S1x1000_S1 one_axis _ _ j
  exact congrArg₂ Ideal.div s1 (congrArg (· + Ideal.ofBits .f32 0x24E69595#32) s2)

end Cert.KernelIdeal.Mine

end
-- ==== Proof.MineArray.lean ====
/-
  The second launch's output array, and the program's result.

  The second launch has one grid point whose blocks are the whole arrays: it reads the whole distance matrix and
  the whole label column and writes the one entry of its output.  That entry is the reference's scalar, so the
  output array is the constant array at it, and the program's result (that array re-laid as a scalar) is the
  reference's result.
-/
import proofs.«158583_j884763263444_2_alg».proof.Proof.Gen.KernelIdeal.Frame
import proofs.«158583_j884763263444_2_alg».proof.Proof.Fold
import proofs.«158583_j884763263444_2_alg».proof.Proof.DistArray
import proofs.«158583_j884763263444_2_alg».proof.Proof.Mine

set_option maxRecDepth 16384

noncomputable section

namespace Cert.KernelIdeal.MineArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The reference's scalar result of the launch memory's three arguments. -/
def loss (c : Dev nD) : EReal :=
  Cert.ReferenceIdeal.Read.val_main_v28 (F := Ideal) (m ((c.tc : Thread nD τ).loc main_arg0))
    (m ((c.tc : Thread nD τ).loc main_arg1)) (m ((c.tc : Thread nD τ).loc main_arg2)) ix0

/-- The printed index maps at the one grid point: every block index is zero. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0 :=
  (by decide +kernel : ∀ t : Fin grid1.N, _)

/-- The first input block is the whole distance matrix, which is the reference's. -/
theorem rel_block (c : Dev nD) (t : Fin cfg1.N) :
    iblk1 (V3 m ρ) c 0 t
      = Cert.ReferenceIdeal.Read.val_main_v6 (F := Ideal) (m ((c.tc : Thread nD τ).loc main_arg0)) (m ((c.tc : Thread nD τ).loc main_arg1)) := by
  funext y
  show V3 m ρ c main_v3 (((cfg1.win 0).blk t).view.emb y) = _
  rw [DistArray.relations m ρ c]
  refine congrArg (Cert.ReferenceIdeal.Read.val_main_v6 (F := Ideal) _ _) ?_
  obtain ⟨e0, e1, -⟩ := idx_facts t
  funext d
  apply Fin.ext
  match d with
  | ⟨0, _⟩ => show win1_0.index t (0 : Fin 2) * 256 + 1 * (y 0).val = (y 0).val; rw [e0]; omega
  | ⟨1, _⟩ => show win1_0.index t (1 : Fin 2) * 1000 + 1 * (y 1).val = (y 1).val; rw [e1]; omega

/-- The second input block is the whole label column: the label vector re-laid as a column. -/
theorem lab_block (c : Dev nD) (t : Fin cfg1.N) :
    iblk1 (V3 m ρ) c 1 t = shapeCast S256x1 (m ((c.tc : Thread nD τ).loc main_arg2)) shapeCasts_S256_S256x1 := by
  funext y
  show V3 m ρ c main_v4 (((cfg1.win 1).blk t).view.emb y) = _
  rw [Fold.labelcol_eq m ρ c]
  refine congrArg (shapeCast S256x1 (m ((c.tc : Thread nD τ).loc main_arg2)) shapeCasts_S256_S256x1) ?_
  obtain ⟨-, -, e0, e1, -⟩ := idx_facts t
  funext d
  apply Fin.ext
  match d with
  | ⟨0, _⟩ => show win1_1.index t (0 : Fin 2) * 256 + 1 * (y 0).val = (y 0).val; rw [e0]; omega
  | ⟨1, _⟩ => show win1_1.index t (1 : Fin 2) * 1 + 1 * (y 1).val = (y 1).val; rw [e1]; omega

/-- What the one point writes back is the block of the constant array at the reference's scalar. -/
theorem flushed_eq (c : Dev nD) (t : Fin cfg1.N) :
    (dat1 (V3 m ρ) c).flushed 2 t = ((cfg1.win 2).blk t).view.read (Elt Ideal) (fun _ => loss m c) := by
  show (cfg1.win 2).cut (grid1.coords t) ((dat1 (V3 m ρ) c).after 2 t) = _
  rw [after1_2]
  unfold out1_2
  rw [View.canon_unit_zero zero1]
  simp only [View.ld_unit_zero (S := S256x1000) zero2, View.ld_unit_zero (S := S256x1) zero2]
  rw [rel_block m ρ c t, lab_block m ρ c t]
  funext j
  exact Mine.loss_eq _ _ _ j

/-- An index of the one-element array is in the one point's block. -/
theorem cover (i : S1.Idx) :
    ∃ t : Fin cfg1.N, (cfg1.win 2).flush t = true ∧ i ∈ ((cfg1.win 2).blk t).view.set := by
  have h0 : (i 0).val < 1 := (i 0).isLt
  obtain ⟨-, -, -, -, e0⟩ := idx_facts t1_0
  refine ⟨t1_0, flush1_2 t1_0, ?_⟩
  show i ∈ ((View.whole main_v5).slice (win1_2.rect t1_0)).set
  rw [View.set_slice_whole, Rect.mem_set_unit]
  intro a
  match a with
  | ⟨0, _⟩ =>
    show win1_2.index t1_0 (0 : Fin 1) * 1 ≤ (i 0).val ∧ (i 0).val < win1_2.index t1_0 (0 : Fin 1) * 1 + 1
    rw [e0]; omega

/-- After the second launch its output array holds the reference's scalar. -/
theorem final (c : Dev nD) : (dat1 (V3 m ρ) c).arrAt 2 cfg1.N = fun _ => loss m c :=
  (dat1 (V3 m ρ) c).arrAt_eq_of_cover 2 _ (fun t _ => flushed_eq m ρ c t) cover

/-- The result buffer at the end of the idealized kernel's run is the reference's result term. -/
theorem result (c : Dev nD) :
    (W5 m ρ c (Proc.devRef .tc main_v6) : S_.Idx → Elt Ideal .f32)
      = Cert.ReferenceIdeal.Read.val_main_v28 (F := Ideal) (m ((c.tc : Thread nD τ).loc main_arg0))
          (m ((c.tc : Thread nD τ).loc main_arg1)) (m ((c.tc : Thread nD τ).loc main_arg2)) := by
  rw [Fold.result_eq m ρ c, final m ρ c]
  funext i
  show loss m c = _
  unfold loss
  exact congrArg _ (eq_ix0 i).symm

end Cert.KernelIdeal.MineArray

end
-- ==== Proof.lean ====
/-
  A triplet loss with hardest-example mining, computed by two kernel launches, against its jnp reference:
  equal results over the extended reals.

  Inputs: two matrices a, e of shape [256000, 300] (256 anchors times 1000 classes, 300 features) and 256 integer
  labels.  Both programs compute
      R b q   = sqrt (sum over d of ((e (1000 b + q) d - a (1000 b + q) d) + eps)^2)
      mask b q = 1 if q = label b, else 0
      hp q    = max over b of R b q * mask b q
      hn q    = min over b of (R b q + (max over b' of R b' q) * mask b q)
      tr q    = max (hp q - hn q + 1) 0
      loss    = (sum over q of tr q) / ((sum over q of [tr q > w]) + w)
  with the same words for eps and w.  The kernel program re-lays the matrices as [256, 1000, 300], computes R
  four anchors at a time over a grid of 64 points (its blocks tile the output), re-lays R as a matrix and the labels
  as a column, and computes the loss in a second launch on whole arrays; the reference works on the [256000, 300]
  matrices directly and re-lays the 256000 distances as [256, 1000].  Every step is the same operation on the
  same elements: the only differences are layouts (row-major re-layings, a broadcast against a re-laying, a splat
  against a broadcast of a constant), the order of sums, maxima and minima, and the host sums' initial zero.  So the
  two results are equal for all inputs, finite or not, and the precondition is not used by the value claim.

  The modules: RunOut (the kernel program's run, its result named), Fold (the buffers at the boundaries between the
  host stretches and the launches), DistPay and DistArray (the first launch), Mine and MineArray (the second launch
  and the result).  The reference's run and its stage-by-stage reading are the generated Run and Read modules.
  The frames are the generated ones; the idealization rewrote nothing, so its conjunct is trivial.
-/
import proofs.«158583_j884763263444_2_alg».proof.Defs
import proofs.«158583_j884763263444_2_alg».proof.Proof.Gen.Kernel
import proofs.«158583_j884763263444_2_alg».proof.Proof.Gen.Kernel.Skeleton
import proofs.«158583_j884763263444_2_alg».proof.Proof.Gen.Kernel.Launch
import proofs.«158583_j884763263444_2_alg».proof.Proof.Gen.Kernel.Points
import proofs.«158583_j884763263444_2_alg».proof.Proof.Gen.Kernel.Frame
import proofs.«158583_j884763263444_2_alg».proof.Proof.Gen.KernelIdeal
import proofs.«158583_j884763263444_2_alg».proof.Proof.Gen.KernelIdeal.Skeleton
import proofs.«158583_j884763263444_2_alg».proof.Proof.Gen.KernelIdeal.Launch
import proofs.«158583_j884763263444_2_alg».proof.Proof.Gen.KernelIdeal.Points
import proofs.«158583_j884763263444_2_alg».proof.Proof.Gen.KernelIdeal.Frame
import proofs.«158583_j884763263444_2_alg».proof.Proof.Gen.ReferenceIdeal
import proofs.«158583_j884763263444_2_alg».proof.Proof.Gen.ReferenceIdeal.Run
import proofs.«158583_j884763263444_2_alg».proof.Proof.Gen.ReferenceIdeal.Read
import proofs.«158583_j884763263444_2_alg».proof.Proof.Gen.Pre_finite_inputs
import proofs.«158583_j884763263444_2_alg».proof.Proof.RunOut
import proofs.«158583_j884763263444_2_alg».proof.Proof.MineArray
import Idealize.ShloMosaic.Adequacy
import Idealize.ShloMosaic.Init

noncomputable section

namespace Cert.Proof

open Idealize.ShloMosaic Idealize.SL.Sem

/-- The kernel program as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the reference's result term of those
    arguments in their result buffers. -/
theorem algebraic : Cert.algebraic_KernelIdeal_ReferenceIdeal := by
  intro m ρ m' ρ' _ hagree
  refine ⟨fun c => Cert.ReferenceIdeal.Read.val_main_v28 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.MineArray.result m ρ c), (h c).2⟩)
      (Cert.KernelIdeal.RunOut.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
